-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32x32 : Shape := ⟨4, ![16, 512, 32, 32]⟩
abbrev S_ : Shape := ⟨0, ![]⟩

class Facts : Prop where
  bcast_S_S16x512x32x32 : S_.BroadcastsInDim S16x512x32x32 (![] : Fin 0 → Fin S16x512x32x32.rank)
  reducesTo_S16x512x32x32_S_d0_1_2_3 : S16x512x32x32.ReducesTo [0, 1, 2, 3] S_
  h_S_ : 0 < S_.numel

variable [Facts]

def fn {F : FTy → Type} [FloatOps F] (main_arg0 : FVec F S16x512x32x32 .f32) (main_arg1 : FVec F S16x512x32x32 .f32) : IVec S_ 1 :=
  let main_v0 : FVec F S16x512x32x32 .f32 := Host.absf main_arg0
  let main_cst : FVec F S_ .f32 := constant S_ .f32 0x7F800000#32
  let main_v1 : FVec F S16x512x32x32 .f32 := broadcastInDim S16x512x32x32 ![] bcast_S_S16x512x32x32 main_cst
  let main_v2 : IVec S16x512x32x32 1 := cmpf .olt main_v0 main_v1
  let main_c : IVec S_ 1 := constantI S_ 1 1#1
  let main_v3 : IVec S_ 1 := (fun x v => Host.reduce IntOp.andi x v reducesTo_S16x512x32x32_S_d0_1_2_3 h_S_) main_v2 main_c
  let main_v4 : FVec F S16x512x32x32 .f32 := Host.absf main_arg1
  let main_cst_0 : FVec F S_ .f32 := constant S_ .f32 0x7F800000#32
  let main_v5 : FVec F S16x512x32x32 .f32 := broadcastInDim S16x512x32x32 ![] bcast_S_S16x512x32x32 main_cst_0
  let main_v6 : IVec S16x512x32x32 1 := cmpf .olt main_v4 main_v5
  let main_c_1 : IVec S_ 1 := constantI S_ 1 1#1
  let main_v7 : IVec S_ 1 := (fun x v => Host.reduce IntOp.andi x v reducesTo_S16x512x32x32_S_d0_1_2_3 h_S_) main_v6 main_c_1
  let main_v8 : IVec S_ 1 := andi main_v3 main_v7
  main_v8
-- ==== Kernel.lean ====
abbrev S16x512x32x32 : Shape := ⟨4, ![16, 512, 32, 32]⟩
abbrev S16x512x1024 : Shape := ⟨3, ![16, 512, 1024]⟩
abbrev S1x1024 : Shape := ⟨2, ![1, 1024]⟩
abbrev S2x512x1024 : Shape := ⟨3, ![2, 512, 1024]⟩
abbrev S1x512 : Shape := ⟨2, ![1, 512]⟩
abbrev S2x512x512 : Shape := ⟨3, ![2, 512, 512]⟩
abbrev S512x512 : Shape := ⟨2, ![512, 512]⟩
abbrev S512 : Shape := ⟨1, ![512]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S16x512x1024, .f32⟩
  | .hbm, ⟨3, _⟩ => ⟨S16x512x1024, .f32⟩
  | .hbm, ⟨4, _⟩ => ⟨S1x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2x512x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | .local _ .vmem, ⟨4, _⟩ => ⟨S1x512, .f32⟩
  | .local _ .vmem, ⟨5, _⟩ => ⟨S1x512, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x512x32x32_S16x512x1024 : S16x512x32x32.ShapeCasts S16x512x1024
  inb_S1x512_S1x512_0_0 : ∀ a, (![0, 0] : Fin 2 → Nat) a + S1x512.size a ≤ S1x512.size a
  h_S1x512 : 0 < S1x512.numel
  inb_S2x512x1024_S2x512x1024_0_0_0 : ∀ a, (![0, 0, 0] : Fin 3 → Nat) a + S2x512x1024.size a ≤ S2x512x1024.size a
  h_S2x512x1024 : 0 < S2x512x1024.numel
  shapeCasts_S2x512x1024_S2x512x1024 : S2x512x1024.ShapeCasts S2x512x1024
  bitsLt_bf16_f32 : FTy.bits .bf16 < FTy.bits .f32
  reduces_S2x512x512_S512x512 : S2x512x512.Reduces [0] S512x512
  reduces_S512x512_S512 : S512x512.Reduces [0] S512
  shapeCasts_S512_S1x512 : S512.ShapeCasts S1x512
  shapeCasts_S1x512_S1x512 : S1x512.ShapeCasts S1x512
  reducesTo_S1x1024_S_d0_1 : S1x1024.ReducesTo [0, 1] S_
  h_S_ : 0 < S_.numel
  dot_S2x512x1024_S2x512x1024_S2x512x512_2_2_1_1_0_0_wf : DotDims.WF S2x512x1024 S2x512x1024 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S16x512x1024.size a
  hwx0_0 : ∀ i : grid0.Coords, EltTy.bits .f32 = 32 ∨ (Rect.block (s := S16x512x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1024.size a ≤ S16x512x1024.size a
  hwx0_1 : ∀ i : grid0.Coords, EltTy.bits .f32 = 32 ∨ (Rect.block (s := S16x512x1024) S2x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)

variable [Facts₀]

def dot_S2x512x1024_S2x512x1024_S2x512x512_2_2_1_1_0_0 : DotDims S2x512x1024 S2x512x1024 S2x512x512 where
  lhsContracting := [2]
  rhsContracting := [2]
  lhsNonContracting := [1]
  rhsNonContracting := [1]
  lhsBatch := [0]
  rhsBatch := [0]
  wf := dot_S2x512x1024_S2x512x1024_S2x512x512_2_2_1_1_0_0_wf

abbrev win0_0 : Pipeline.Window sig grid0 :=
  Pipeline.Window.ofSpec (Memref.whole main_v0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x32x32 : Shape := ⟨4, ![16, 512, 32, 32]⟩
abbrev S16x512x1024 : Shape := ⟨3, ![16, 512, 1024]⟩
abbrev S16x512x512 : Shape := ⟨3, ![16, 512, 512]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16x512x32x32, .f32⟩
  | .hbm, ⟨1, _⟩ => ⟨S16x512x32x32, .f32⟩
  | .hbm, ⟨2, _⟩ => ⟨S16x512x1024, .f32⟩
  | .hbm, ⟨3, _⟩ => ⟨S16x512x512, .f32⟩
  | .hbm, ⟨4, _⟩ => ⟨S16x512x1024, .f32⟩
  | .hbm, ⟨5, _⟩ => ⟨S16x512x512, .f32⟩
  | .hbm, ⟨6, _⟩ => ⟨S16x512x512, .f32⟩
  | .hbm, ⟨7, _⟩ => ⟨S16x512x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  shapeCasts_S16x512x32x32_S16x512x1024 : S16x512x32x32.ShapeCasts S16x512x1024
  reducesTo_S16x512x512_S_d0_1_2 : S16x512x512.ReducesTo [0, 1, 2] S_
  h_S_ : 0 < S_.numel
  dot_S16x512x1024_S16x512x1024_S16x512x512_2_2_1_1_0_0_wf : DotDims.WF S16x512x1024 S16x512x1024 S16x512x512 [2] [2] [1] [1] [0] [0]

variable [Facts₀]

def dot_S16x512x1024_S16x512x1024_S16x512x512_2_2_1_1_0_0 : DotDims S16x512x1024 S16x512x1024 S16x512x512 where
  lhsContracting := [2]
  rhsContracting := [2]
  lhsNonContracting := [1]
  rhsNonContracting := [1]
  lhsBatch := [0]
  rhsBatch := [0]
  wf := dot_S16x512x1024_S16x512x1024_S16x512x512_2_2_1_1_0_0_wf

class Facts : Prop extends Facts₀ where

variable [Facts]
-- ==== Proof.Pieces.lean ====
/-
  What one grid point leaves in the staging buffer of the (1, 512) output block.

  The body writes the block through the whole buffer.  At a point whose inner coordinate is zero it first
  stores the zero row and then stores "row read back + column sums of this point's squared Gram differences";
  at every other point it performs only the second store, the row read back being what the previous point
  left.  Both facts are read off the stores the run found: the last store covers the whole block, so the block
  is that store's value, and every load through the whole-buffer rectangle reads the buffer's contents.
-/
import proofs.«170997_j50878182588704_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the block ends at the accumulation step applied to the two input blocks and
    to the row `xo` the buffer held on entry. -/
theorem out_B (c : Dev nD) (i : grid0.Coords) (a2 : Memref sig .tc .vmem S2x512x1024 .f32) (h2 : a2.IsWhole)
    (a3 : Memref sig .tc .vmem S2x512x1024 .f32) (h3 : a3.IsWhole) (a4 : Memref sig .tc .vmem S1x512 .f32) (h4 : a4.IsWhole)
    (hc : ¬cond0_0 i) (x0 x1 : Vec F S2x512x1024 .f32) (xo : Vec F S1x512 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz2]
  simp only [View.readAt_eq_ld, h2.read_unread, h3.read_unread, h4.read_unread,
    View.ld_unit_zero (S := S2x512x1024) hz3, View.ld_unit_zero (S := S1x512) hz2]

/-- A point that resets: the same step applied to the zero row the reset has just stored. -/
theorem out_A (c : Dev nD) (i : grid0.Coords) (a2 : Memref sig .tc .vmem S2x512x1024 .f32) (h2 : a2.IsWhole)
    (a3 : Memref sig .tc .vmem S2x512x1024 .f32) (h3 : a3.IsWhole) (a4 : Memref sig .tc .vmem S1x512 .f32) (h4 : a4.IsWhole)
    (hc : cond0_0 i) (x0 x1 : Vec F S2x512x1024 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x512) hz2, View.readCov_unit_zero (S := S1x512) _ hz2]
  simp only [View.readAt_eq_ld, h2.read_unread, h3.read_unread,
    View.ld_unit_zero (S := S2x512x1024) hz3]

end Cert.KernelIdeal.Acc

end
-- ==== Proof.GramSum.lean ====
/-
  The mathematics of the loss, free of any program.

  For two arrays `f0 f1` of 16 batches of 512 rows of 1024 entries, the Gram matrix of batch `b` is
  `G b c d = ∑ k, f b c k * f b d k`, and the loss's numerator is the sum over all `(b, c, d)` of
  `(G1 b c d - G0 b c d)²`.  The kernel visits the batches two at a time in eight steps; steps 0–3 add, column
  by column, into the first 512 entries of a row of 1024, steps 4–7 into the last 512, each half starting from
  zero.  This file states both readings and proves that the row's total is the numerator: the two are the same
  terms summed in another order, and addition on the extended reals is commutative and associative, so nothing
  about finiteness is needed.
-/
import Idealize.ShloMosaic.PureOps.Ideal
import Idealize.ShloMosaic.Lib.ValueIdx

noncomputable section

open Idealize.ShloMosaic Idealize.ShloMosaic.ValueIdx
open scoped BigOperators

namespace Cert.GramLoss

/-- Entry `(c, d)` of the Gram matrix of batch `b`. -/
def gram {B : Nat} (x : (⟨3, ![B, 512, 1024]⟩ : Shape).Idx → EReal) (b : Fin B) (c d : Fin 512) : EReal :=
  ∑ k : Fin 1024, x (ix3 b c k) * x (ix3 b d k)

/-- The squared difference of the two Gram matrices at `(b, c, d)`. -/
def sqDiff {B : Nat} (x0 x1 : (⟨3, ![B, 512, 1024]⟩ : Shape).Idx → EReal) (b : Fin B) (c d : Fin 512) : EReal :=
  (gram x1 b c d - gram x0 b c d) * (gram x1 b c d - gram x0 b c d)

/-- Column `d` of a block of two batches: the squared differences summed over the block's batches and rows. -/
def colSum (x0 x1 : (⟨3, ![2, 512, 1024]⟩ : Shape).Idx → EReal) (d : Fin 512) : EReal :=
  ∑ c : Fin 512, ∑ bb : Fin 2, sqDiff x0 x1 bb c d

/-- The block of two batches step `t` works on: batches `2t` and `2t + 1`. -/
def blk (f : (⟨3, ![16, 512, 1024]⟩ : Shape).Idx → EReal) (t : Fin 8) : (⟨3, ![2, 512, 1024]⟩ : Shape).Idx → EReal :=
  fun y => f (ix3 ⟨2 * t.val + (y 0).val, by have h : (y 0).val < 2 := (y 0).isLt; have := t.isLt; omega⟩ (y 1) (y 2))

/-- The running row after step `n`: restarted from zero at steps 0 and 4, otherwise the previous row plus the
    step's column sums. -/
def accRow (f0 f1 : (⟨3, ![16, 512, 1024]⟩ : Shape).Idx → EReal) : (n : ℕ) → n < 8 → Fin 512 → EReal
  | 0, h => fun d => 0 + colSum (blk f0 ⟨0, h⟩) (blk f1 ⟨0, h⟩) d
  | n + 1, h =>
    if (n + 1) % 4 = 0 then fun d => 0 + colSum (blk f0 ⟨n + 1, h⟩) (blk f1 ⟨n + 1, h⟩) d
    else fun d => accRow f0 f1 n (Nat.lt_of_succ_lt h) d + colSum (blk f0 ⟨n + 1, h⟩) (blk f1 ⟨n + 1, h⟩) d

/-- The row of 1024 the kernel hands back: entry `j` is column `j % 512` of the running row after the last step
    of half `j / 512`. -/
def outRow (f0 f1 : (⟨3, ![16, 512, 1024]⟩ : Shape).Idx → EReal) (j : (⟨2, ![1, 1024]⟩ : Shape).Idx) : EReal :=
  accRow f0 f1 (4 * ((j 1).val / 512) + 3) (by have h : (j 1).val < 1024 := (j 1).isLt; omega)
    ⟨(j 1).val % 512, Nat.mod_lt _ (by decide)⟩

/-- The numerator of the loss. -/
def total (f0 f1 : (⟨3, ![16, 512, 1024]⟩ : Shape).Idx → EReal) : EReal :=
  ∑ i : (⟨3, ![16, 512, 512]⟩ : Shape).Idx, sqDiff f0 f1 (i 0) (i 1) (i 2)

/-- The loss: the numerator, summed from zero, divided by the constant `2^40` (the product
    `4 · 1024 · 1024 · 512 · 512`, kept as the single-precision word both programs spell it with). -/
def lossVal (f0 f1 : (⟨3, ![16, 512, 1024]⟩ : Shape).Idx → EReal) : (⟨0, ![]⟩ : Shape).Idx → EReal :=
  fun _ => FloatOps.hostDivf (F := Ideal) (φ := .f32) (Ideal.ofBits .f32 0x00000000#32 + total f0 f1) (Ideal.ofBits .f32 0x53800000#32)

/-- A block's squared difference is the whole arrays' at the block's batch. -/
theorem sqDiff_blk (f0 f1 : (⟨3, ![16, 512, 1024]⟩ : Shape).Idx → EReal) (t : Fin 8) (bb : Fin 2) (c d : Fin 512) :
    sqDiff (blk f0 t) (blk f1 t) bb c d
      = sqDiff f0 f1 ⟨2 * t.val + bb.val, by have := t.isLt; have := bb.isLt; omega⟩ c d := rfl

/-- After the last step of a half the running row is the four steps' column sums. -/
theorem accRow_last (f0 f1 : (⟨3, ![16, 512, 1024]⟩ : Shape).Idx → EReal) (q : ℕ) (hq : q < 2) (d : Fin 512) :
    accRow f0 f1 (4 * q + 3) (by omega) d
      = ∑ s : Fin 4, colSum (blk f0 ⟨4 * q + s.val, by have := s.isLt; omega⟩) (blk f1 ⟨4 * q + s.val, by have := s.isLt; omega⟩) d := by
  rw [Fin.sum_univ_four]
  interval_cases q
  · show ((0 + _) + _ + _) + _ = _
    rw [zero_add]; rfl
  · show ((0 + _) + _ + _) + _ = _
    rw [zero_add]; rfl

/-- The position of a term of the row's total among the terms of the numerator. -/
def reidx : ((⟨2, ![1, 1024]⟩ : Shape).Idx × Fin 4 × Fin 512 × Fin 2) ≃ (⟨3, ![16, 512, 512]⟩ : Shape).Idx where
  toFun p := ix3
    ⟨2 * (4 * ((p.1 1).val / 512) + p.2.1.val) + p.2.2.2.val, by
      have h : (p.1 1).val < 1024 := (p.1 1).isLt; have := p.2.1.isLt; have := p.2.2.2.isLt; omega⟩
    p.2.2.1
    ⟨(p.1 1).val % 512, Nat.mod_lt _ (by decide)⟩
  invFun i := (ix2 (0 : Fin 1) ⟨(i 0).val / 8 * 512 + (i 2).val, by
      have h0 : (i 0).val < 16 := (i 0).isLt; have h2 : (i 2).val < 512 := (i 2).isLt; omega⟩,
    ⟨(i 0).val / 2 % 4, Nat.mod_lt _ (by decide)⟩, i 1, ⟨(i 0).val % 2, Nat.mod_lt _ (by decide)⟩)
  left_inv p := by
    obtain ⟨j, s, c, bb⟩ := p
    have h : (j 1).val < 1024 := (j 1).isLt
    have hs := s.isLt
    have hb := bb.isLt
    refine Prod.ext ?_ (Prod.ext ?_ (Prod.ext rfl ?_))
    · funext a
      match a with
      | ⟨0, _⟩ => exact Fin.ext (by have h0 : (j 0).val < 1 := (j 0).isLt; show (0 : ℕ) = (j 0).val; omega)
      | ⟨1, _⟩ => exact Fin.ext (by show (2 * (4 * ((j 1).val / 512) + s.val) + bb.val) / 8 * 512 + (j 1).val % 512 = (j 1).val; omega)
    · exact Fin.ext (by show (2 * (4 * ((j 1).val / 512) + s.val) + bb.val) / 2 % 4 = s.val; omega)
    · exact Fin.ext (by show (2 * (4 * ((j 1).val / 512) + s.val) + bb.val) % 2 = bb.val; omega)
  right_inv i := by
    have h0 : (i 0).val < 16 := (i 0).isLt
    have h2 : (i 2).val < 512 := (i 2).isLt
    funext a
    match a with
    | ⟨0, _⟩ => exact Fin.ext (by show 2 * (4 * (((i 0).val / 8 * 512 + (i 2).val) / 512) + (i 0).val / 2 % 4) + (i 0).val % 2 = (i 0).val; omega)
    | ⟨1, _⟩ => rfl
    | ⟨2, _⟩ => exact Fin.ext (by show ((i 0).val / 8 * 512 + (i 2).val) % 512 = (i 2).val; omega)

/-- The row's total is the numerator. -/
theorem sum_outRow (f0 f1 : (⟨3, ![16, 512, 1024]⟩ : Shape).Idx → EReal) :
    ∑ j, outRow f0 f1 j = total f0 f1 := by
  unfold total
  rw [← Equiv.sum_comp reidx, Fintype.sum_prod_type]
  refine Finset.sum_congr rfl fun j _ => ?_
  have h : (j 1).val < 1024 := (j 1).isLt
  unfold outRow
  rw [accRow_last f0 f1 _ (by omega), Fintype.sum_prod_type]
  refine Finset.sum_congr rfl fun s _ => ?_
  rw [Fintype.sum_prod_type]
  rfl

end Cert.GramLoss

end
-- ==== Proof.Payload.lean ====
/-
  One accumulation step, entry by entry, over the extended reals.

  The step takes the two input blocks (two batches of 512 rows of 1024 entries each) and the row the output
  buffer holds, and returns that row plus, in column `d`, the sum over the block's batches and rows `c` of
  `(G1 c d - G0 c d)²`, where `G c d = ∑ k, x c k * x d k` is the batch's Gram matrix.  Narrowing the blocks to
  sixteen-bit floats changes nothing here, a product into a zero accumulator is the plain sum of products, and the
  two reductions along the leading axis are sums over that axis.
-/
import proofs.«170997_j50878182588704_2_alg».proof.Proof.Gen.KernelIdeal.Skeleton
import proofs.«170997_j50878182588704_2_alg».proof.Proof.GramSum
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Acc

open Cert.KernelIdeal Cert.KernelIdeal.Gen Cert.GramLoss

/-! ## The operand indices of the batched product -/

theorem lhs_0 (i : S2x512x512.Idx) (q : dot_S2x512x1024_S2x512x1024_S2x512x512_2_2_1_1_0_0.contr.Idx) :
    (dot_S2x512x1024_S2x512x1024_S2x512x512_2_2_1_1_0_0.lhsIdx i q 0).val = (i 0).val := by
  unfold DotDims.lhsIdx
  rw [dif_pos (show (0 : Fin S2x512x1024.rank) ∈ dot_S2x512x1024_S2x512x1024_S2x512x512_2_2_1_1_0_0.lhsBatch by decide)]
  rfl
theorem lhs_1 (i : S2x512x512.Idx) (q : dot_S2x512x1024_S2x512x1024_S2x512x512_2_2_1_1_0_0.contr.Idx) :
    (dot_S2x512x1024_S2x512x1024_S2x512x512_2_2_1_1_0_0.lhsIdx i q 1).val = (i 1).val := by
  unfold DotDims.lhsIdx
  rw [dif_neg (show ¬(1 : Fin S2x512x1024.rank) ∈ dot_S2x512x1024_S2x512x1024_S2x512x512_2_2_1_1_0_0.lhsBatch by decide),
    dif_pos (show (1 : Fin S2x512x1024.rank) ∈ dot_S2x512x1024_S2x512x1024_S2x512x512_2_2_1_1_0_0.lhsNonContracting by decide)]
  rfl
theorem lhs_2 (i : S2x512x512.Idx) (q : dot_S2x512x1024_S2x512x1024_S2x512x512_2_2_1_1_0_0.contr.Idx) :
    (dot_S2x512x1024_S2x512x1024_S2x512x512_2_2_1_1_0_0.lhsIdx i q 2).val = (q ⟨0, by decide⟩).val :=
  dot_S2x512x1024_S2x512x1024_S2x512x512_2_2_1_1_0_0.lhsIdx_val_of_single rfl i q
theorem rhs_0 (i : S2x512x512.Idx) (q : dot_S2x512x1024_S2x512x1024_S2x512x512_2_2_1_1_0_0.contr.Idx) :
    (dot_S2x512x1024_S2x512x1024_S2x512x512_2_2_1_1_0_0.rhsIdx i q 0).val = (i 0).val := by
  unfold DotDims.rhsIdx
  rw [dif_pos (show (0 : Fin S2x512x1024.rank) ∈ dot_S2x512x1024_S2x512x1024_S2x512x512_2_2_1_1_0_0.rhsBatch by decide)]
  rfl
theorem rhs_1 (i : S2x512x512.Idx) (q : dot_S2x512x1024_S2x512x1024_S2x512x512_2_2_1_1_0_0.contr.Idx) :
    (dot_S2x512x1024_S2x512x1024_S2x512x512_2_2_1_1_0_0.rhsIdx i q 1).val = (i 2).val := by
  unfold DotDims.rhsIdx
  rw [dif_neg (show ¬(1 : Fin S2x512x1024.rank) ∈ dot_S2x512x1024_S2x512x1024_S2x512x512_2_2_1_1_0_0.rhsBatch by decide),
    dif_pos (show (1 : Fin S2x512x1024.rank) ∈ dot_S2x512x1024_S2x512x1024_S2x512x512_2_2_1_1_0_0.rhsNonContracting by decide)]
  rfl
theorem rhs_2 (i : S2x512x512.Idx) (q : dot_S2x512x1024_S2x512x1024_S2x512x512_2_2_1_1_0_0.contr.Idx) :
    (dot_S2x512x1024_S2x512x1024_S2x512x512_2_2_1_1_0_0.rhsIdx i q 2).val = (q ⟨0, by decide⟩).val :=
  dot_S2x512x1024_S2x512x1024_S2x512x512_2_2_1_1_0_0.rhsIdx_val_of_single rfl i q

/-! ## The Gram matrices of a block -/

/-- The product of a block with itself over the last axis, batch by batch, into zero: the block's Gram matrices. -/
def gramBlock (x : Vec Ideal S2x512x1024 .f32) : FVec Ideal S2x512x512 .f32 :=
  matmul dot_S2x512x1024_S2x512x1024_S2x512x512_2_2_1_1_0_0 none
    (truncf .bf16 (shapeCast S2x512x1024 x shapeCasts_S2x512x1024_S2x512x1024) bitsLt_bf16_f32)
    (truncf .bf16 (shapeCast S2x512x1024 x shapeCasts_S2x512x1024_S2x512x1024) bitsLt_bf16_f32)
    (constant S2x512x512 .f32 0x00000000#32)

theorem gramBlock_apply (x : Vec Ideal S2x512x1024 .f32) (bb : Fin 2) (c d : Fin 512) :
    gramBlock x (ix3 bb c d) = gram x bb c d := by
  unfold gramBlock
  rw [shapeCast_self]
  simp only [matmul]
  rw [Ideal.matmul_constant_zero_apply,
    ← Equiv.sum_comp (contrEquiv1 dot_S2x512x1024_S2x512x1024_S2x512x512_2_2_1_1_0_0 1024 rfl rfl).symm]
  unfold gram
  refine Finset.sum_congr rfl fun k _ => ?_
  have hk := contrEquiv1_symm_val dot_S2x512x1024_S2x512x1024_S2x512x512_2_2_1_1_0_0 1024 rfl rfl k
  have el : dot_S2x512x1024_S2x512x1024_S2x512x512_2_2_1_1_0_0.lhsIdx (ix3 bb c d)
      ((contrEquiv1 dot_S2x512x1024_S2x512x1024_S2x512x512_2_2_1_1_0_0 1024 rfl rfl).symm k) = ix3 bb c k :=
    funext fun a => Fin.ext (by
      match a with
      | ⟨0, _⟩ => exact lhs_0 _ _
      | ⟨1, _⟩ => exact lhs_1 _ _
      | ⟨2, _⟩ => exact (lhs_2 _ _).trans hk)
  have er : dot_S2x512x1024_S2x512x1024_S2x512x512_2_2_1_1_0_0.rhsIdx (ix3 bb c d)
      ((contrEquiv1 dot_S2x512x1024_S2x512x1024_S2x512x512_2_2_1_1_0_0 1024 rfl rfl).symm k) = ix3 bb d k :=
    funext fun a => Fin.ext (by
      match a with
      | ⟨0, _⟩ => exact rhs_0 _ _
      | ⟨1, _⟩ => exact rhs_1 _ _
      | ⟨2, _⟩ => exact (rhs_2 _ _).trans hk)
  rw [el, er]
  rfl

/-! ## The two sums along the leading axis -/

/-- The squared differences of a block's two Gram matrices. -/
def sqBlock (x0 x1 : Vec Ideal S2x512x1024 .f32) : FVec Ideal S2x512x512 .f32 :=
  mulf (subf (gramBlock x1) (gramBlock x0)) (subf (gramBlock x1) (gramBlock x0))

theorem sqBlock_apply (x0 x1 : Vec Ideal S2x512x1024 .f32) (bb : Fin 2) (c d : Fin 512) :
    sqBlock x0 x1 (ix3 bb c d) = sqDiff x0 x1 bb c d := by
  show (gramBlock x1 (ix3 bb c d) - gramBlock x0 (ix3 bb c d)) * (gramBlock x1 (ix3 bb c d) - gramBlock x0 (ix3 bb c d)) = _
  rw [gramBlock_apply, gramBlock_apply]
  rfl

/-- Summing a (2, 512, 512) array over its batches. -/
theorem sum_batches (v : FVec Ideal S2x512x512 .f32) (hacc : (0x00000000#32 : BitVec 32) = 0x00000000#32) (c d : Fin 512) :
    multiReduction .add [0] S512x512 v 0x00000000#32 reduces_S2x512x512_S512x512 (.inl rfl) hacc (ix2 c d)
      = ∑ bb : Fin 2, v (ix3 bb c d) := by
  refine (Ideal.multiReduction_add_single v 0x00000000#32 reduces_S2x512x512_S512x512 (.inl rfl) hacc (ix2 c d)).trans ?_
  refine Finset.sum_congr rfl fun bb _ => congrArg v (funext fun a => Fin.ext ?_)
  match a with
  | ⟨0, _⟩ => rfl
  | ⟨1, _⟩ => rfl
  | ⟨2, _⟩ => rfl

/-- Summing a (512, 512) array over its rows. -/
theorem sum_rows (v : FVec Ideal S512x512 .f32) (hacc : (0x00000000#32 : BitVec 32) = 0x00000000#32) (d : Fin 512) :
    multiReduction .add [0] S512 v 0x00000000#32 reduces_S512x512_S512 (.inl rfl) hacc (ix1 d)
      = ∑ c : Fin 512, v (ix2 c d) := by
  refine (Ideal.multiReduction_add_single v 0x00000000#32 reduces_S512x512_S512 (.inl rfl) hacc (ix1 d)).trans ?_
  refine Finset.sum_congr rfl fun c _ => congrArg v (funext fun a => Fin.ext ?_)
  match a with
  | ⟨0, _⟩ => rfl
  | ⟨1, _⟩ => rfl

/-! ## The step -/

/-- The step is the row plus the column sums of the block's squared Gram differences. -/
theorem step_apply (x0 x1 : Vec Ideal S2x512x1024 .f32) (acc : Vec Ideal S1x512 .f32) (d : Fin 512) :
    k0_pay2 (F := Ideal) x0 x1 acc (ix2 (0 : Fin 1) d) = acc (ix2 (0 : Fin 1) d) + colSum x0 x1 d := by
  show (shapeCast S1x512 acc shapeCasts_S1x512_S1x512) (ix2 (0 : Fin 1) d)
    + (shapeCast S1x512 (multiReduction .add [0] S512 (multiReduction .add [0] S512x512 (sqBlock x0 x1) 0x00000000#32
        reduces_S2x512x512_S512x512 (.inl rfl) rfl) 0x00000000#32 reduces_S512x512_S512 (.inl rfl) rfl) shapeCasts_S512_S1x512) (ix2 (0 : Fin 1) d) = _
  rw [shapeCast_self]
  refine congrArg (acc (ix2 (0 : Fin 1) d) + ·) ?_
  refine (shapeCast_addUnit_apply ![512] _ shapeCasts_S512_S1x512 (ix2 (0 : Fin 1) d)).trans ?_
  have e : (fun a : Fin 1 => (ix2 (0 : Fin 1) d) a.succ) = ix1 d := funext fun a => by
    match a with
    | ⟨0, _⟩ => rfl
  rw [e]
  refine (sum_rows _ rfl d).trans ?_
  unfold colSum
  refine Finset.sum_congr rfl fun c _ => ?_
  refine (sum_batches _ rfl c d).trans ?_
  exact Finset.sum_congr rfl fun bb _ => sqBlock_apply x0 x1 bb c d

/-- The zero row of the reset, entry by entry. -/
theorem zeroRow_apply (y : S1x512.Idx) : k0_pay1 (F := Ideal) y = 0 := Ideal.ofBits_zero_f32

end Cert.KernelIdeal.Acc

end
-- ==== Proof.Accum.lean ====
/-
  The output buffer after every grid point, and the row the kernel hands back.

  Point `t` of the eight reads batches `2t` and `2t + 1` of the two arrays.  By induction on the point the
  (1, 512) output block holds the running row of the specification: restarted at points 0 and 4, otherwise the
  previous point's row plus the point's column sums.  The block is written back after points 3 and 7, to columns
  0–511 and 512–1023 of the (1, 1024) result, so the result is the specification's row entry by entry.
-/
import proofs.«170997_j50878182588704_2_alg».proof.Proof.Pieces
import proofs.«170997_j50878182588704_2_alg».proof.Proof.Payload
import proofs.«170997_j50878182588704_2_alg».proof.Proof.Gen.KernelIdeal.Frame
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.GramLoss

variable (m : (ℓ : Loc nD τ sig) → Buf (Elt Ideal) ℓ) (ρ : Dev nD → PrngReg)

/-- The two flattened arrays as the kernel finds them. -/
abbrev arr0 (c : Dev nD) : (⟨3, ![16, 512, 1024]⟩ : Shape).Idx → EReal := V m c main_v0
abbrev arr1 (c : Dev nD) : (⟨3, ![16, 512, 1024]⟩ : Shape).Idx → EReal := V m c main_v1

/-- Where the windows sit at each point: the inputs at batch pair `t`, the output at half `t / 4`. -/
theorem idx_at : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val / 4 :=
  (by decide +kernel : ∀ t : Fin grid0.N, _)

/-- The first input's block at point `t` is batches `2t, 2t + 1` of the first array. -/
theorem iblk0_eq (c : Dev nD) (t : Fin cfg0.N) :
    (iblk m c 0 t : Vec Ideal S2x512x1024 .f32) = blk (arr0 m c) ⟨t.val, lt_of_lt_of_eq t.isLt N_0⟩ := by
  obtain ⟨e0, e1, e2, -⟩ := idx_at t
  funext y
  unfold iblk blk
  rw [View.read_apply]
  show V m c main_v0 _ = V m c main_v0 _
  congr 1
  funext a
  apply Fin.ext
  match a with
  | ⟨0, _⟩ => show win0_0.index t (0 : Fin 3) * 2 + 1 * (y 0).val = 2 * t.val + (y 0).val; omega
  | ⟨1, _⟩ => show win0_0.index t (1 : Fin 3) * 512 + 1 * (y 1).val = (y 1).val; omega
  | ⟨2, _⟩ => show win0_0.index t (2 : Fin 3) * 1024 + 1 * (y 2).val = (y 2).val; omega

/-- The second input's block likewise. -/
theorem iblk1_eq (c : Dev nD) (t : Fin cfg0.N) :
    (iblk m c 1 t : Vec Ideal S2x512x1024 .f32) = blk (arr1 m c) ⟨t.val, lt_of_lt_of_eq t.isLt N_0⟩ := by
  obtain ⟨-, -, -, e0, e1, e2, -⟩ := idx_at t
  funext y
  unfold iblk blk
  rw [View.read_apply]
  show V m c main_v1 _ = V m c main_v1 _
  congr 1
  funext a
  apply Fin.ext
  match a with
  | ⟨0, _⟩ => show win0_1.index t (0 : Fin 3) * 2 + 1 * (y 0).val = 2 * t.val + (y 0).val; omega
  | ⟨1, _⟩ => show win0_1.index t (1 : Fin 3) * 512 + 1 * (y 1).val = (y 1).val; omega
  | ⟨2, _⟩ => show win0_1.index t (2 : Fin 3) * 1024 + 1 * (y 2).val = (y 2).val; omega

/-- After point `n` the output block holds the specification's running row. -/
theorem outsAt_eq (c : Dev nD) : ∀ (n : ℕ) (h : n < cfg0.N) (d : Fin 512),
    outsAt0 m c n h (ix2 (0 : Fin 1) d) = accRow (arr0 m c) (arr1 m c) n (lt_of_lt_of_eq h N_0) d
  | 0, h, d => by
    refine (congrFun ((outsAt0_A m c ⟨0, h⟩ rfl).trans (out_A ..)) _).trans ?_
    refine (step_apply _ _ _ d).trans ?_
    rw [zeroRow_apply, iblk0_eq, iblk1_eq]
    rfl
  | n + 1, h, d => by
    by_cases h0 : (n + 1) % 4 = 0
    · refine (congrFun ((outsAt0_A m c ⟨n + 1, h⟩ h0).trans (out_A ..)) _).trans ?_
      refine (step_apply _ _ _ d).trans ?_
      rw [zeroRow_apply, iblk0_eq, iblk1_eq]
      show _ = (if (n + 1) % 4 = 0 then _ else _ : Fin 512 → EReal) d
      rw [if_pos h0]
    · refine (congrFun ((outsAt0_B m c ⟨n + 1, h⟩ h0).trans (out_B ..)) _).trans ?_
      refine (step_apply _ _ _ d).trans ?_
      rw [iblk0_eq, iblk1_eq]
      show outsAt0 m c n _ (ix2 (0 : Fin 1) d) + _ = (if (n + 1) % 4 = 0 then _ else _ : Fin 512 → EReal) d
      rw [if_neg h0, outsAt_eq c n _ d]

/-- What a write-back writes is the matching half of the specification's row. -/
theorem flushed_eq (c : Dev nD) (t : Fin cfg0.N) (hf : (cfg0.win 2).flush t = true) :
    (dats m 0 c).flushed 2 t = ((cfg0.win 2).blk t).view.read (Elt Ideal) (outRow (arr0 m c) (arr1 m c)) := by
  have h3 : t.val % 4 = 3 := (flush0_2 t).mp hf
  have hN : t.val < 8 := lt_of_lt_of_eq t.isLt N_0
  obtain ⟨-, -, -, -, -, -, e0, e1⟩ := idx_at t
  show (cfg0.win 2).cut (grid0.coords t) ((dats m 0 c).after 2 t) = _
  rw [after0_2]
  funext y
  have hy0 : (y 0).val < 1 := (y 0).isLt
  have hy1 : (y 1).val < 512 := (y 1).isLt
  have ey : y = ix2 (0 : Fin 1) ⟨(y 1).val, hy1⟩ := funext fun a => by
    match a with
    | ⟨0, _⟩ => exact Fin.ext (by show (y 0).val = 0; omega)
    | ⟨1, _⟩ => rfl
  show outsAt0 m c t.val t.isLt y = outRow (arr0 m c) (arr1 m c) (((cfg0.win 2).blk t).view.emb y)
  rw [ey, outsAt_eq]
  unfold outRow
  have hj : ((((cfg0.win 2).blk t).view.emb (ix2 (0 : Fin 1) ⟨(y 1).val, hy1⟩)) 1).val = t.val / 4 * 512 + (y 1).val := by
    show win0_2.index t (1 : Fin 2) * 512 + 1 * (y 1).val = _
    omega
  have hq : 4 * (((((cfg0.win 2).blk t).view.emb (ix2 (0 : Fin 1) ⟨(y 1).val, hy1⟩)) 1).val / 512) + 3 = t.val := by
    rw [hj]; omega
  have hd : ((((cfg0.win 2).blk t).view.emb (ix2 (0 : Fin 1) ⟨(y 1).val, hy1⟩)) 1).val % 512 = (y 1).val := by
    rw [hj]; omega
  congr 1
  · exact hq.symm
  · exact Fin.ext hd.symm

end Cert.KernelIdeal.Acc

end
-- ==== Proof.KernelRun.lean ====
/-
  The idealized kernel's run, read to its result.

  After the region the program sums the (1, 1024) row the kernel handed back, starting from zero, and divides by
  the constant `2^40`.  The row is the specification's row, whose total is the numerator of the loss, so the
  result is the loss of the two flattened arrays; and those are the reshapes of the two arguments that the
  program computes before the region.
-/
import proofs.«170997_j50878182588704_2_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.GramLoss

variable (m : (ℓ : Loc nD τ sig) → Buf (Elt Ideal) ℓ) (ρ : Dev nD → PrngReg)

/-- Every entry of the (1, 1024) result lies in the block written back after point 3 or after point 7. -/
theorem final_row (c : Dev nD) : (dats m 0 c).arrAt 2 cfg0.N = outRow (arr0 m c) (arr1 m c) :=
  (dats m 0 c).arrAt_eq_of_cover 2 (outRow (arr0 m c) (arr1 m c)) (flushed_eq m c) fun i => by
    have h0 : (i 0).val < 1 := (i 0).isLt
    have h1 : (i 1).val < 1024 := (i 1).isLt
    have hN : 4 * ((i 1).val / 512) + 3 < cfg0.N := by rw [show cfg0.N = 8 from N_0]; omega
    refine ⟨⟨4 * ((i 1).val / 512) + 3, hN⟩, (flush0_2 _).mpr (by show (4 * ((i 1).val / 512) + 3) % 4 = 3; omega), ?_⟩
    obtain ⟨-, -, -, -, -, -, e0, e1⟩ := idx_at ⟨4 * ((i 1).val / 512) + 3, hN⟩
    show i ∈ ((View.whole main_v2).slice (win0_2.rect ⟨4 * ((i 1).val / 512) + 3, hN⟩)).set
    rw [View.set_slice_whole, Rect.mem_set_unit]
    intro a
    match a with
    | ⟨0, _⟩ =>
      show win0_2.index ⟨4 * ((i 1).val / 512) + 3, hN⟩ (0 : Fin 2) * 1 ≤ (i 0).val
        ∧ (i 0).val < win0_2.index ⟨4 * ((i 1).val / 512) + 3, hN⟩ (0 : Fin 2) * 1 + 1
      omega
    | ⟨1, _⟩ =>
      show win0_2.index ⟨4 * ((i 1).val / 512) + 3, hN⟩ (1 : Fin 2) * 512 ≤ (i 1).val
        ∧ (i 1).val < win0_2.index ⟨4 * ((i 1).val / 512) + 3, hN⟩ (1 : Fin 2) * 512 + 512
      have e1' : win0_2.index ⟨4 * ((i 1).val / 512) + 3, hN⟩ (1 : Fin 2) = (4 * ((i 1).val / 512) + 3) / 4 := e1
      omega

/-- The arrays the kernel finds are the arguments flattened. -/
theorem arr0_eq (c : Dev nD) :
    arr0 m c = shapeCast S16x512x1024 (m ((c : Thread nD τ).loc main_arg0)) shapeCasts_S16x512x32x32_S16x512x1024 := by
  show StableHlo.after hostOps0 (fun b => m (c, b)) (Proc.devRef .tc main_v0) = _
  after_results
  rfl
theorem arr1_eq (c : Dev nD) :
    arr1 m c = shapeCast S16x512x1024 (m ((c : Thread nD τ).loc main_arg1)) shapeCasts_S16x512x32x32_S16x512x1024 := by
  show StableHlo.after hostOps0 (fun b => m (c, b)) (Proc.devRef .tc main_v1) = _
  after_results
  rfl

/-- What the lines after the region leave in the result: the loss of the flattened arrays. -/
theorem tail_eq (c : Dev nD) :
    Pipeline.afterTail₀ cfgs (dats m) 0 (V0 m) [hostOps1] c main_v4 = lossVal (arr0 m c) (arr1 m c) := by
  unfold Pipeline.afterTail₀
  show StableHlo.after hostOps1 _ (Proc.devRef .tc main_v4) = _
  after_results
  rw [(Pipeline.withArrays_arr spec0 launch0.win.arr_inj c _ _ 2).trans (final_row m c)]
  funext i
  show FloatOps.hostDivf (Host.reduceAdd (F := Ideal) (outRow (arr0 m c) (arr1 m c)) (constant S_ .f32 0x00000000#32) reducesTo_S1x1024_S_d0_1 h_S_ i)
    (Ideal.ofBits .f32 0x53800000#32) = _
  simp only [Host.reduceAdd, Ideal.hostReduceAdd_def]
  rw [Ideal.hostReduceAdd_total reducesTo_S1x1024_S_d0_1 (fun b => b.elim0) _ _ i, sum_outRow]
  rfl

/-- The run: the result at the loss of the flattened arguments, the arguments unchanged. -/
theorem run : θ_run defs (onTc (τ := τ) (main (F := Ideal))) ⟨m, fun _ => 0, ρ⟩ fun r => ∀ c : Dev nD,
      r.2.mem ((c.tc : Thread nD τ).loc main_v4)
        = lossVal (shapeCast S16x512x1024 (m ((c : Thread nD τ).loc main_arg0)) shapeCasts_S16x512x32x32_S16x512x1024)
            (shapeCast S16x512x1024 (m ((c : Thread nD τ).loc main_arg1)) shapeCasts_S16x512x32x32_S16x512x1024)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(((h c).2 main_v4 (Pipeline.mem_restRefs_of main_v4 (by decide) (by decide))).trans (tail_eq m c)).trans
          (by rw [arr0_eq, arr1_eq]),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Acc

end
-- ==== Proof.RefValue.lean ====
/-
  The reference computes the loss of the flattened arguments.

  Its two batched products are the Gram matrices of the flattened arrays, entry `(b, c, d)` the sum over `k` of
  `f b c k * f b d k`; it subtracts them, squares, sums every entry from zero and divides by the constant `2^40`.
-/
import proofs.«170997_j50878182588704_2_alg».proof.Proof.Gen.ReferenceIdeal.Read
import proofs.«170997_j50878182588704_2_alg».proof.Proof.GramSum

noncomputable section

open Idealize.ShloMosaic Idealize.ShloMosaic.ValueIdx
open scoped BigOperators

namespace Cert.ReferenceIdeal.RefValue

open Cert.ReferenceIdeal Cert.ReferenceIdeal.Read Cert.GramLoss

theorem lidx1_eq (j : S16x512x512.Idx) (k : Fin 1024) : lidx_main_v1 j k = ix3 (j 0) (j 1) k :=
  funext fun a => by
    match a with
    | ⟨0, _⟩ => rfl
    | ⟨1, _⟩ => rfl
    | ⟨2, _⟩ => rfl
theorem ridx1_eq (j : S16x512x512.Idx) (k : Fin 1024) : ridx_main_v1 j k = ix3 (j 0) (j 2) k :=
  funext fun a => by
    match a with
    | ⟨0, _⟩ => rfl
    | ⟨1, _⟩ => rfl
    | ⟨2, _⟩ => rfl
theorem lidx3_eq (j : S16x512x512.Idx) (k : Fin 1024) : lidx_main_v3 j k = ix3 (j 0) (j 1) k :=
  funext fun a => by
    match a with
    | ⟨0, _⟩ => rfl
    | ⟨1, _⟩ => rfl
    | ⟨2, _⟩ => rfl
theorem ridx3_eq (j : S16x512x512.Idx) (k : Fin 1024) : ridx_main_v3 j k = ix3 (j 0) (j 2) k :=
  funext fun a => by
    match a with
    | ⟨0, _⟩ => rfl
    | ⟨1, _⟩ => rfl
    | ⟨2, _⟩ => rfl

/-- The first product is the Gram matrices of the first flattened array. -/
theorem gram0_eq (x0 : (⟨S16x512x32x32, .f32⟩ : BufTy).Contents (Elt Ideal)) (j : S16x512x512.Idx) :
    val_main_v1 (F := Ideal) x0 j = gram (val_main_v0 (F := Ideal) x0) (j 0) (j 1) (j 2) := by
  rw [val_main_v1_apply]
  unfold gram
  exact Finset.sum_congr rfl fun k _ => by rw [lidx1_eq, ridx1_eq]; rfl

/-- The second product is the Gram matrices of the second flattened array. -/
theorem gram1_eq (x1 : (⟨S16x512x32x32, .f32⟩ : BufTy).Contents (Elt Ideal)) (j : S16x512x512.Idx) :
    val_main_v3 (F := Ideal) x1 j = gram (val_main_v2 (F := Ideal) x1) (j 0) (j 1) (j 2) := by
  rw [val_main_v3_apply]
  unfold gram
  exact Finset.sum_congr rfl fun k _ => by rw [lidx3_eq, ridx3_eq]; rfl

/-- The reference's result is the loss of the flattened arguments. -/
theorem result_eq (x0 x1 : (⟨S16x512x32x32, .f32⟩ : BufTy).Contents (Elt Ideal)) :
    val_main_v7 (F := Ideal) x0 x1 = lossVal (val_main_v0 (F := Ideal) x0) (val_main_v2 (F := Ideal) x1) := by
  funext i
  show FloatOps.hostDivf (val_main_v6 (F := Ideal) x0 x1 i) (Ideal.ofBits .f32 0x53800000#32) = _
  rw [val_main_v6_apply]
  unfold lossVal total
  refine congrArg (fun s : EReal => FloatOps.hostDivf (F := Ideal) (φ := .f32) (Ideal.ofBits .f32 0x00000000#32 + s) (Ideal.ofBits .f32 0x53800000#32)) ?_
  refine Finset.sum_congr rfl fun j _ => ?_
  show (val_main_v3 (F := Ideal) x1 j - val_main_v1 (F := Ideal) x0 j) * (val_main_v3 (F := Ideal) x1 j - val_main_v1 (F := Ideal) x0 j) = _
  rw [gram0_eq, gram1_eq]
  rfl

end Cert.ReferenceIdeal.RefValue

end
-- ==== Proof.lean ====
/-
  The Gram-matrix loss: a Pallas kernel against its jnp reference, over the extended reals.

  Both programs take two arrays of shape (16, 512, 32, 32), flatten the last two axes to 1024, form for every
  batch `b` the Gram matrix `G b c d = ∑ k, f b c k * f b d k` of each array, and return
  `(∑ b c d, (G1 b c d - G0 b c d)²) / 2^40`.

  The reference does this with two batched products and one sum over all entries.  The kernel walks the batches
  two at a time over a grid of 2 × 4 points; at each point it forms the two Gram matrices of the pair (from the
  blocks narrowed to sixteen-bit floats, which over the extended reals is no change), sums the squared differences
  over the pair's batches and rows, and adds the resulting row of 512 column sums into a block of the output that
  it resets at the first of every four points; the two blocks make a row of 1024, which the program sums and
  divides by the same constant.  So the kernel adds the very terms the reference adds, grouped by half, step,
  row and batch; addition on the extended reals is commutative and associative, hence the two results agree for
  every input (the finiteness of the inputs is not used).

  The modules: `GramSum` (the specification and the regrouping of the sum), `Pieces` (what one point leaves in
  the output block), `Payload` (one accumulation step entry by entry), `Accum` (the block after every point, and
  what is written back), `KernelRun` (the kernel's run read to its result), `RefValue` (the reference's result).
-/
import proofs.«170997_j50878182588704_2_alg».proof.Defs
import proofs.«170997_j50878182588704_2_alg».proof.Proof.Gen.Kernel
import proofs.«170997_j50878182588704_2_alg».proof.Proof.Gen.Kernel.Skeleton
import proofs.«170997_j50878182588704_2_alg».proof.Proof.Gen.Kernel.Launch
import proofs.«170997_j50878182588704_2_alg».proof.Proof.Gen.Kernel.Points
import proofs.«170997_j50878182588704_2_alg».proof.Proof.Gen.Kernel.Frame
import proofs.«170997_j50878182588704_2_alg».proof.Proof.Gen.KernelIdeal
import proofs.«170997_j50878182588704_2_alg».proof.Proof.Gen.KernelIdeal.Skeleton
import proofs.«170997_j50878182588704_2_alg».proof.Proof.Gen.KernelIdeal.Launch
import proofs.«170997_j50878182588704_2_alg».proof.Proof.Gen.KernelIdeal.Points
import proofs.«170997_j50878182588704_2_alg».proof.Proof.Gen.KernelIdeal.Frame
import proofs.«170997_j50878182588704_2_alg».proof.Proof.Gen.ReferenceIdeal
import proofs.«170997_j50878182588704_2_alg».proof.Proof.Gen.Pre_finite_inputs
import proofs.«170997_j50878182588704_2_alg».proof.Proof.Gen.ReferenceIdeal.Run
import proofs.«170997_j50878182588704_2_alg».proof.Proof.Gen.ReferenceIdeal.Read
import proofs.«170997_j50878182588704_2_alg».proof.Proof.KernelRun
import proofs.«170997_j50878182588704_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- Both programs end at the loss of the flattened arguments. -/
theorem algebraic : Cert.algebraic_KernelIdeal_ReferenceIdeal := by
  intro m ρ m' ρ' _ hagree
  refine ⟨fun c => Cert.GramLoss.lossVal
      (shapeCast Cert.KernelIdeal.S16x512x1024 (m ((c.tc : Thread Cert.KernelIdeal.nD Cert.KernelIdeal.τ).loc Cert.KernelIdeal.main_arg0))
        Cert.KernelIdeal.Gen.shapeCasts_S16x512x32x32_S16x512x1024)
      (shapeCast Cert.KernelIdeal.S16x512x1024 (m ((c.tc : Thread Cert.KernelIdeal.nD Cert.KernelIdeal.τ).loc Cert.KernelIdeal.main_arg1))
        Cert.KernelIdeal.Gen.shapeCasts_S16x512x32x32_S16x512x1024),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
